-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192 : Shape := ⟨1, ![8192]⟩
abbrev S8x1x8192 : Shape := ⟨3, ![8, 1, 8192]⟩
abbrev S1024x256 : Shape := ⟨2, ![1024, 256]⟩
abbrev S2048x256 : Shape := ⟨2, ![2048, 256]⟩
abbrev S1024 : Shape := ⟨1, ![1024]⟩
abbrev S1x1x2048 : Shape := ⟨3, ![1, 1, 2048]⟩
abbrev S1024x1 : Shape := ⟨2, ![1024, 1]⟩
abbrev S256x2048 : Shape := ⟨2, ![256, 2048]⟩
abbrev S1024x2048 : Shape := ⟨2, ![1024, 2048]⟩
abbrev S2048 : Shape := ⟨1, ![2048]⟩
abbrev S2048x1 : Shape := ⟨2, ![2048, 1]⟩
abbrev S1x2048 : Shape := ⟨2, ![1, 2048]⟩
abbrev S8x8192 : Shape := ⟨2, ![8, 8192]⟩
abbrev S_ : Shape := ⟨0, ![]⟩

abbrev nBuf : Space → Nat
  | .hbm => 20
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192, .f32⟩
  | .hbm, ⟨3, _⟩ => ⟨S8x1x8192, .f32⟩
  | .hbm, ⟨4, _⟩ => ⟨S8x8192, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1024, .f32⟩
  | .local _ .vmem, ⟨5, _⟩ => ⟨S1024, .f32⟩
  | .local _ .vmem, ⟨6, _⟩ => ⟨S1x1x2048, .f32⟩
  | .local _ .vmem, ⟨7, _⟩ => ⟨S1x1x2048, .f32⟩
  | .local _ .vmem, ⟨8, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  transposes_S2048x256_p1_0_S256x2048 : S2048x256.Transposes [1, 0] S256x2048
  reduces_S1024x256_S1024 : S1024x256.Reduces [1] S1024
  shapeCasts_S1024_S1024x1 : S1024.ShapeCasts S1024x1
  reduces_S2048x256_S2048 : S2048x256.Reduces [1] S2048
  shapeCasts_S2048_S2048x1 : S2048.ShapeCasts S2048x1
  transposes_S2048x1_p1_0_S1x2048 : S2048x1.Transposes [1, 0] S1x2048
  broadcasts_S1024x1_S1024x2048 : S1024x1.Broadcasts S1024x2048
  broadcasts_S1x2048_S1024x2048 : S1x2048.Broadcasts S1024x2048
  reduces_S1024x2048_S1024 : S1024x2048.Reduces [1] S1024
  reduces_S1024x2048_S2048 : S1024x2048.Reduces [0] S2048
  shapeCasts_S2048_S1x2048 : S2048.ShapeCasts S1x2048
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1024x1_S1024 : S1024x1.ShapeCasts S1024
  inb_S1024_S1024_0 : ∀ a, (![0] : Fin 1 → Nat) a + S1024.size a ≤ S1024.size a
  h_S1024 : 0 < S1024.numel
  shapeCasts_S8x1x8192_S8x8192 : S8x1x8192.ShapeCasts S8x8192
  reducesTo_S8x8192_S8192_d0 : S8x8192.ReducesTo [0] S8192
  h_S_ : 0 < S_.numel
  bcast_S_S8192 : S_.BroadcastsInDim S8192 (![] : Fin 0 → Fin S8192.rank)
  reducesTo_S8192_S_d0 : S8192.ReducesTo [0] S_
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x8192.size a
  hwx0_3 : ∀ i : grid0.Coords, EltTy.bits .f32 = 32 ∨ (Rect.block (s := S8x1x8192) S1x1x2048.size (cc0_transform_3 i) (hinb0_3 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibMinima.lean ====
/-
  Minima over finite index sets, in any complete linear order (the extended reals are one).

  * The fold of `min` from the top element over a finite type is the infimum of the family
    (`fold_min_eq_iInf`), so a minimum taken in any order or grouping is one value.
  * A monotone map commutes with a fold of `min` (`map_fold_min`), hence with a finite infimum when it
    fixes the top element (`map_iInf_fintype`).
  * An infimum over `Fin n`, `n = a * b`, is the infimum over the `a` consecutive blocks of length `b` of the
    blocks' infima (`iInf_fin_blocks`); taken over the indices below `(j + 1) * b` it is the `min` of the one over
    the indices below `j * b` and block `j`'s (`iInf_lt_block_succ`), starting from the top element
    (`iInf_lt_zero`) and ending at the whole infimum (`iInf_lt_all`).
  * On the extended reals the square root (bottom below zero, top at top) is monotone (`sqrt_monotone`), so
    `x ↦ sqrt (max x z)` is monotone and fixes the top element (`clampRoot_monotone`, `clampRoot_top`) and
    therefore commutes with every finite minimum.
-/
import Idealize.ShloMosaic.PureOps.Ideal

noncomputable section

namespace Cert.Lib.Minima

open Idealize.ShloMosaic

section Order

variable {α : Type*} [CompleteLinearOrder α] {ι : Type*}

/-- The fold of `min` from `⊤` over a whole finite type is the infimum of the family. -/
theorem fold_min_eq_iInf [Fintype ι] (f : ι → α) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-- A monotone map goes through a fold of `min`. -/
theorem map_fold_min {β γ : Type*} [LinearOrder β] [LinearOrder γ] {g : β → γ} (hg : Monotone g)
    (s : Finset ι) (b : β) (f : ι → β) : g (s.fold min b f) = s.fold min (g b) (fun k => g (f k)) := by
  classical
  induction s using Finset.induction_on with
  | empty => simp
  | insert a s ha ih => rw [Finset.fold_insert ha, Finset.fold_insert ha, hg.map_min, ih]

/-- A monotone map that fixes `⊤` commutes with the infimum of a finite family. -/
theorem map_iInf_fintype [Fintype ι] {β : Type*} [CompleteLinearOrder β] {g : α → β} (hg : Monotone g)
    (htop : g ⊤ = ⊤) (f : ι → α) : g (⨅ k, f k) = ⨅ k, g (f k) := by
  rw [← fold_min_eq_iInf, map_fold_min hg, htop, fold_min_eq_iInf]

/-- Position `r` of block `i`, of `a` blocks of length `b`, is below `a * b`. -/
theorem blk_lt {a b : ℕ} (i : Fin a) (r : Fin b) : i.val * b + r.val < a * b := by
  have h1 : (i.val + 1) * b ≤ a * b := Nat.mul_le_mul_right b i.isLt
  have h2 := r.isLt
  have e : (i.val + 1) * b = i.val * b + b := Nat.succ_mul _ _
  omega

/-- The infimum over `Fin n`, `n = a * b`, block by block. -/
theorem iInf_fin_blocks {n : ℕ} (a b : ℕ) (hab : a * b = n) (f : Fin n → α) :
    (⨅ k : Fin n, f k) = ⨅ i : Fin a, ⨅ r : Fin b, f ⟨i.val * b + r.val, hab ▸ blk_lt i r⟩ := by
  apply le_antisymm
  · exact le_iInf fun i => le_iInf fun r => iInf_le f _
  · refine le_iInf fun k => ?_
    have hk : k.val < a * b := hab ▸ k.isLt
    have hb : 0 < b := by
      rcases Nat.eq_zero_or_pos b with h | h
      · subst h; simp at hk
      · exact h
    have hi : k.val / b < a := (Nat.div_lt_iff_lt_mul hb).2 hk
    refine (iInf_le _ (⟨k.val / b, hi⟩ : Fin a)).trans ((iInf_le _ (⟨k.val % b, Nat.mod_lt _ hb⟩ : Fin b)).trans ?_)
    exact le_of_eq (congrArg f (Fin.ext (Nat.div_add_mod' k.val b)))

/-- Over no index at all the conditional infimum is the top element. -/
theorem iInf_lt_zero {n : ℕ} (b : ℕ) (f : Fin n → α) : (⨅ k : Fin n, ⨅ (_ : k.val < 0 * b), f k) = ⊤ :=
  le_antisymm le_top (le_iInf fun k => le_iInf fun hk => absurd hk (by simp))

/-- Over every index it is the infimum. -/
theorem iInf_lt_all {n : ℕ} (f : Fin n → α) : (⨅ k : Fin n, ⨅ (_ : k.val < n), f k) = ⨅ k, f k :=
  iInf_congr fun k => iInf_pos k.isLt

/-- One more block: the infimum over the indices below `(j + 1) * b` is the `min` of the one over the indices below
    `j * b` and the infimum over block `j`. -/
theorem iInf_lt_block_succ {n : ℕ} (b j : ℕ) (hj : (j + 1) * b ≤ n) (f : Fin n → α) :
    (⨅ k : Fin n, ⨅ (_ : k.val < (j + 1) * b), f k)
      = min (⨅ k : Fin n, ⨅ (_ : k.val < j * b), f k)
          (⨅ r : Fin b, f ⟨j * b + r.val, by have := r.isLt; have e : (j + 1) * b = j * b + b := Nat.succ_mul _ _; omega⟩) := by
  have e : (j + 1) * b = j * b + b := Nat.succ_mul _ _
  apply le_antisymm
  · refine le_min (le_iInf fun k => le_iInf fun hk => iInf₂_le k (by omega)) (le_iInf fun r => ?_)
    exact iInf₂_le (⟨j * b + r.val, by have := r.isLt; omega⟩ : Fin n) (by have := r.isLt; show j * b + r.val < (j + 1) * b; omega)
  · refine le_iInf fun k => le_iInf fun hk => ?_
    by_cases h : k.val < j * b
    · exact (min_le_left _ _).trans (iInf₂_le k h)
    · refine (min_le_right _ _).trans ((iInf_le _ (⟨k.val - j * b, by omega⟩ : Fin b)).trans ?_)
      exact le_of_eq (congrArg f (Fin.ext (by show j * b + (k.val - j * b) = k.val; omega)))

end Order

section Root

/-- The extended reals' square root (`⊥` below zero, `⊤` at `⊤`) is monotone. -/
theorem sqrt_monotone : Monotone Ideal.sqrt := by
  intro x y hxy
  induction x using EReal.rec with
  | bot => simp
  | top => obtain rfl : y = ⊤ := top_le_iff.1 hxy; exact le_rfl
  | coe r =>
    induction y using EReal.rec with
    | bot => simp at hxy
    | top => simp
    | coe s =>
      have hrs : r ≤ s := EReal.coe_le_coe_iff.1 hxy
      simp only [Ideal.sqrt_coe]
      split_ifs with h1 h2 h2
      · exact le_rfl
      · exact bot_le
      · exfalso; linarith
      · exact EReal.coe_le_coe_iff.2 (Real.sqrt_le_sqrt hrs)

/-- The root of a value clamped from below at `z`. -/
def clampRoot (z x : EReal) : EReal := Ideal.sqrt (max x z)

theorem clampRoot_monotone (z : EReal) : Monotone (clampRoot z) := fun _ _ h =>
  sqrt_monotone (max_le_max h le_rfl)

theorem clampRoot_top (z : EReal) : clampRoot z ⊤ = ⊤ := by
  unfold clampRoot; rw [max_eq_left le_top]; rfl

/-- So it commutes with the infimum of a finite family: the least clamped root is the clamped root of the least value. -/
theorem clampRoot_iInf {ι : Type*} [Fintype ι] (z : EReal) (f : ι → EReal) :
    clampRoot z (⨅ k, f k) = ⨅ k, clampRoot z (f k) :=
  map_iInf_fintype (clampRoot_monotone z) (clampRoot_top z) f

end Root

end Cert.Lib.Minima

end
-- ==== Proof.Nearest.lean ====
/-
  The averaged nearest-neighbour loss of two sets of 8192 points in 256 dimensions, as one function of the two
  arrays over the extended reals.

  The squared distance of point `n` of the first set from point `m` of the second is taken through the inner
  product, |a|² + |b|² − 2·⟨a, b⟩ (`sqDist`). A point's distance from the other set is the root of its least
  squared distance, clamped at zero from below (`near₁` for the first set's points, `near₂` for the second's): the
  root of the clamped value is monotone, so the least root is the root of the least value, and the minimum may be
  taken before the root or after it, over the whole other set at once or block by block. The loss is the mean of
  the first set's distances plus the mean of the second's (`loss`).

  The float words stay words: `2.0`, the zero the sums start from and the clamp compares with, and the point count
  `8192.0` the means divide by are the same patterns wherever they are met.
-/
import Idealize.ShloMosaic.PureOps.Ideal
import Idealize.ShloMosaic.Lib.ValueIdx
import proofs.«100556_j52072183497482_2_alg».proof.Proof.LibMinima

noncomputable section

namespace Cert.Nearest

open Idealize.ShloMosaic Idealize.ShloMosaic.ValueIdx Cert.Lib.Minima

/-- A set of 8192 points of 256 coordinates each, one row per point. -/
abbrev Pts : Type := (⟨2, ![8192, 256]⟩ : Shape).Idx → EReal

/-- The word of `2.0`. -/
abbrev two : EReal := Ideal.ofBits .f32 0x40000000#32
/-- The word of `+0.0`. -/
abbrev zero : EReal := Ideal.ofBits .f32 0x00000000#32
/-- The word of `8192.0`, the number of points of either set. -/
abbrev count : EReal := Ideal.ofBits .f32 0x46000000#32

/-- The word of `+∞` is the top element. -/
theorem inf_word : Ideal.ofBits .f32 0x7F800000#32 = ⊤ := by simp [Ideal.ofBits, Ideal.ieee]

/-- The squared distance of row `n` of `A` from row `m` of `B`: |a|² + |b|² − 2·⟨a, b⟩. -/
def sqDist (A B : Pts) (n m : Fin 8192) : EReal :=
  (∑ k : Fin 256, A (ix2 n k) * A (ix2 n k)) + (∑ k : Fin 256, B (ix2 m k) * B (ix2 m k))
    - two * ∑ k : Fin 256, A (ix2 n k) * B (ix2 m k)

/-- The distance of row `n` of `A` from the nearest row of `B`. -/
def near₁ (A B : Pts) (n : Fin 8192) : EReal := clampRoot zero (⨅ m : Fin 8192, sqDist A B n m)

/-- The distance of row `m` of `B` from the nearest row of `A`. -/
def near₂ (A B : Pts) (m : Fin 8192) : EReal := clampRoot zero (⨅ n : Fin 8192, sqDist A B n m)

/-- The loss: the mean over `A`'s rows of the distance to `B`, plus the mean over `B`'s rows of the distance to `A`. -/
def loss (A B : Pts) : (⟨0, ![]⟩ : Shape).Idx → EReal := fun _ =>
  Ideal.div (zero + ∑ j : (⟨1, ![8192]⟩ : Shape).Idx, near₁ A B (j 0)) count
    + Ideal.div (zero + ∑ j : (⟨1, ![8192]⟩ : Shape).Idx, near₂ A B (j 0)) count

/-- The least clamped root over the second set is the clamped root of the least squared distance. -/
theorem near₁_eq (A B : Pts) (n : Fin 8192) :
    (⨅ m : Fin 8192, clampRoot zero (sqDist A B n m)) = near₁ A B n := (clampRoot_iInf zero _).symm

/-- And over the first set. -/
theorem near₂_eq (A B : Pts) (m : Fin 8192) :
    (⨅ n : Fin 8192, clampRoot zero (sqDist A B n m)) = near₂ A B m := (clampRoot_iInf zero _).symm

end Cert.Nearest

end
-- ==== Proof.RefSide.lean ====
/-
  The reference computes the loss: its distance matrix holds, at (n, m), the clamped root of the squared distance
  of row `n` of the first set from row `m` of the second; its two minimum-reductions take the least entry of each
  row and of each column, which are the two sets' distances (the least root is the root of the least value); the
  means and their sum are the loss's.
-/
import proofs.«100556_j52072183497482_2_alg».proof.Proof.Gen.ReferenceIdeal.Read
import proofs.«100556_j52072183497482_2_alg».proof.Proof.Nearest
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Lib.Minima Cert.Nearest

/-- The reference's squared-distance matrix at (n, m). -/
theorem sq_at (A B : Pts) (n m : Fin 8192) : val_main_v12 (F := Ideal) A B (ix2 n m) = sqDist A B n m := by
  have e1 : ∀ k : Fin 256, idx_main_v1 (idx_main_v5 (idx_main_v7 (ix2 n m))) k = ix2 n k := fun k =>
    funext fun a => Fin.ext (by match a with | ⟨0, _⟩ => rfl | ⟨1, _⟩ => rfl)
  have e2 : ∀ k : Fin 256, idx_main_v3 (idx_main_v6 (idx_main_v8 (ix2 n m))) k = ix2 m k := fun k =>
    funext fun a => Fin.ext (by match a with | ⟨0, _⟩ => rfl | ⟨1, _⟩ => rfl)
  have e3 : ∀ k : Fin 256, lidx_main_v4 (ix2 n m) k = ix2 n k := fun k =>
    funext fun a => Fin.ext (by match a with | ⟨0, _⟩ => rfl | ⟨1, _⟩ => rfl)
  have e4 : ∀ k : Fin 256, ridx_main_v4 (ix2 n m) k = ix2 m k := fun k =>
    funext fun a => Fin.ext (by match a with | ⟨0, _⟩ => rfl | ⟨1, _⟩ => rfl)
  rw [val_main_v12_apply, val_main_v9_apply, val_main_v11_apply, val_main_v7_apply, val_main_v5_apply,
    val_main_v1_apply, val_main_v8_apply, val_main_v6_apply, val_main_v3_apply, val_main_v10_apply, val_main_v4_apply]
  simp only [val_main_cst_apply, val_main_cst_0_apply, val_main_cst_1_apply, val_main_v0_apply, val_main_v2_apply,
    Ideal.subf_def, Ideal.addf_def, Ideal.mulf_def, Ideal.ofBits_def, Ideal.ofBits_zero_f32, zero_add, e1, e2, e3, e4]
  rfl

/-- The reference's distance matrix at (n, m): the clamped root of the squared distance. -/
theorem dist_at (A B : Pts) (n m : Fin 8192) :
    val_main_v15 (F := Ideal) A B (ix2 n m) = clampRoot zero (sqDist A B n m) := by
  rw [val_main_v15_apply, val_main_v14_apply, val_main_v13_apply, sq_at]
  simp only [val_main_cst_2_apply, Ideal.hostUnary_sqrt_def, Ideal.maximumf_def, Ideal.ofBits_def]
  rfl

/-- The least entry of row `n` of the distance matrix is the first set's distance at `n`. -/
theorem rowMin_at (A B : Pts) (j : S8192.Idx) : val_main_v16 (F := Ideal) A B j = near₁ A B (j 0) := by
  unfold val_main_v16
  have h : S8192x8192.Reduces [1] S8192 := by decide
  rw [Host.reduce_eq_fold_single (f := FloatOps.minimumf) _ _ reducesTo_S8192x8192_S8192_d1 h h_S_ j]
  refine Eq.trans ?_ (near₁_eq A B (j 0))
  refine Eq.trans ?_ (fold_min_eq_iInf _)
  show Finset.fold min (Ideal.ofBits .f32 0x7F800000#32) (fun k => val_main_v15 (F := Ideal) A B (h.lift j k)) Finset.univ
    = Finset.fold min ⊤ (fun m : Fin 8192 => clampRoot zero (sqDist A B (j 0) m)) Finset.univ
  rw [inf_word]
  refine congrArg (fun f => Finset.fold min ⊤ f Finset.univ) (funext fun k => ?_)
  refine Eq.trans (congrArg _ (funext fun a => Fin.ext (by match a with | ⟨0, _⟩ => rfl | ⟨1, _⟩ => rfl))) (dist_at A B _ _)

/-- The least entry of column `m` is the second set's distance at `m`. -/
theorem colMin_at (A B : Pts) (j : S8192.Idx) : val_main_v19 (F := Ideal) A B j = near₂ A B (j 0) := by
  unfold val_main_v19
  have h : S8192x8192.Reduces [0] S8192 := by decide
  rw [Host.reduce_eq_fold_single (f := FloatOps.minimumf) _ _ reducesTo_S8192x8192_S8192_d0 h h_S_ j]
  refine Eq.trans ?_ (near₂_eq A B (j 0))
  refine Eq.trans ?_ (fold_min_eq_iInf _)
  show Finset.fold min (Ideal.ofBits .f32 0x7F800000#32) (fun k => val_main_v15 (F := Ideal) A B (h.lift j k)) Finset.univ
    = Finset.fold min ⊤ (fun n : Fin 8192 => clampRoot zero (sqDist A B n (j 0))) Finset.univ
  rw [inf_word]
  refine congrArg (fun f => Finset.fold min ⊤ f Finset.univ) (funext fun k => ?_)
  refine Eq.trans (congrArg _ (funext fun a => Fin.ext (by match a with | ⟨0, _⟩ => rfl | ⟨1, _⟩ => rfl))) (dist_at A B _ _)

/-- The reference's result is the loss. -/
theorem result_eq (A B : Pts) : val_main_v22 (F := Ideal) A B = loss A B := by
  funext i
  rw [val_main_v22_apply, val_main_v18_apply, val_main_v21_apply, val_main_v17_apply, val_main_v20_apply]
  simp only [val_main_cst_4_apply, val_main_cst_5_apply, val_main_cst_7_apply, val_main_cst_8_apply, rowMin_at, colMin_at,
    Ideal.addf_def, Ideal.hostDivf_def, Ideal.ofBits_def]
  rfl

end Cert.ReferenceIdeal.RefValue

end
-- ==== Proof.Pieces.lean ====
/-
  What one grid point's body leaves behind, read as values of the blocks it loaded.

  The body works on a tile of 1024 rows of the first set and 2048 rows of the second. It keeps, in a column of 1024
  entries carried from point to point, each row's least squared distance so far: at the first tile of a row block
  the column is reset to +∞ before the tile's row minima are folded in, afterwards the minima are folded into what
  the point before left. Every point writes the tile's column minima; the last tile of a row block also writes the
  clamped roots of the finished column. In each of the three cases a buffer ends holding exactly one payload of
  the loaded blocks (and, for the carried column, of its earlier contents): the last store covers the buffer, and
  what the body reads back from the column it has just stored is that store's payload.
-/
import proofs.«100556_j52072183497482_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a row block: the column is reset, then the tile folded in -/

/-- The carried column after the first tile: the tile's row minima folded into the +∞ column. -/
theorem column_first (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024 .f32) (harg4 : arg4.IsWhole) (arg5 : Memref sig .tc .vmem S1x1x2048 .f32) (harg5 : arg5.IsWhole) (arg6 : Memref sig .tc .vmem S1024x1 .f32) (harg6 : arg6.IsWhole) (hc0 : cond0_0 i) (hc1 : ¬cond0_1 i)
    (x0 : Vec F S1024x256 .f32) (x1 : Vec F S2048x256 .f32) :
    sout0_A_0 c i arg2 harg2 arg3 harg3 arg4 harg4 arg5 harg5 arg6 harg6 hc0 hc1 x0 x1 = k0_pay4 x0 x1 k0_pay2 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, View.ld_unit_zero (S := S1024x256) hz2,
    View.ld_unit_zero (S := S2048x256) hz2]

/-- The tile's column minima, at the first tile. -/
theorem colmin_first (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024 .f32) (harg4 : arg4.IsWhole) (arg5 : Memref sig .tc .vmem S1x1x2048 .f32) (harg5 : arg5.IsWhole) (arg6 : Memref sig .tc .vmem S1024x1 .f32) (harg6 : arg6.IsWhole) (hc0 : cond0_0 i) (hc1 : ¬cond0_1 i)
    (x0 : Vec F S1024x256 .f32) (x1 : Vec F S2048x256 .f32) :
    out0_A_3 c i arg2 harg2 arg3 harg3 arg4 harg4 arg5 harg5 arg6 harg6 hc0 hc1 x0 x1 = k0_pay5 x0 x1 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  rw [View.canon_unit_zero hz3]
  simp only [View.readAt_eq_ld, harg2.read_unread, harg3.read_unread, View.ld_unit_zero (S := S1024x256) hz2,
    View.ld_unit_zero (S := S2048x256) hz2]

/-! ## A middle tile: the tile folded into what the point before left -/

/-- The carried column after a middle tile. -/
theorem column_middle (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024 .f32) (harg4 : arg4.IsWhole) (arg5 : Memref sig .tc .vmem S1x1x2048 .f32) (harg5 : arg5.IsWhole) (arg6 : Memref sig .tc .vmem S1024x1 .f32) (harg6 : arg6.IsWhole) (hc0 : ¬cond0_0 i) (hc1 : ¬cond0_1 i)
    (x0 : Vec F S1024x256 .f32) (x1 : Vec F S2048x256 .f32) (xs0 : Vec F S1024x1 .f32) :
    sout0_B_0 c i arg2 harg2 arg3 harg3 arg4 harg4 arg5 harg5 arg6 harg6 hc0 hc1 x0 x1 xs0 = k0_pay4 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero hz2]
  simp only [View.readAt_eq_ld, harg2.read_unread, harg3.read_unread, harg6.read_unread, View.ld_unit_zero (S := S1024x256) hz2,
    View.ld_unit_zero (S := S2048x256) hz2, View.ld_unit_zero (S := S1024x1) hz2]

/-- The tile's column minima, at a middle tile. -/
theorem colmin_middle (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024 .f32) (harg4 : arg4.IsWhole) (arg5 : Memref sig .tc .vmem S1x1x2048 .f32) (harg5 : arg5.IsWhole) (arg6 : Memref sig .tc .vmem S1024x1 .f32) (harg6 : arg6.IsWhole) (hc0 : ¬cond0_0 i) (hc1 : ¬cond0_1 i)
    (x0 : Vec F S1024x256 .f32) (x1 : Vec F S2048x256 .f32) (xs0 : Vec F S1024x1 .f32) :
    out0_B_3 c i arg2 harg2 arg3 harg3 arg4 harg4 arg5 harg5 arg6 harg6 hc0 hc1 x0 x1 xs0 = k0_pay5 x0 x1 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  rw [View.canon_unit_zero hz3]
  simp only [View.readAt_eq_ld, harg2.read_unread, harg3.read_unread, harg6.read_unread, View.ld_unit_zero (S := S1024x256) hz2,
    View.ld_unit_zero (S := S2048x256) hz2, View.ld_unit_zero (S := S1024x1) hz2]

/-! ## The last tile of a row block: folded in, then the finished column's clamped roots written out -/

/-- The carried column after the last tile. -/
theorem column_last (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024 .f32) (harg4 : arg4.IsWhole) (arg5 : Memref sig .tc .vmem S1x1x2048 .f32) (harg5 : arg5.IsWhole) (arg6 : Memref sig .tc .vmem S1024x1 .f32) (harg6 : arg6.IsWhole) (hc0 : ¬cond0_0 i) (hc1 : cond0_1 i)
    (x0 : Vec F S1024x256 .f32) (x1 : Vec F S2048x256 .f32) (xs0 : Vec F S1024x1 .f32) :
    sout0_C_0 c i arg2 harg2 arg3 harg3 arg4 harg4 arg5 harg5 arg6 harg6 hc0 hc1 x0 x1 xs0 = k0_pay4 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1024x256) hz2,
    View.ld_unit_zero (S := S2048x256) hz2, View.ld_unit_zero (S := S1024x1) hz2]

/-- The tile's column minima, at the last tile. -/
theorem colmin_last (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024 .f32) (harg4 : arg4.IsWhole) (arg5 : Memref sig .tc .vmem S1x1x2048 .f32) (harg5 : arg5.IsWhole) (arg6 : Memref sig .tc .vmem S1024x1 .f32) (harg6 : arg6.IsWhole) (hc0 : ¬cond0_0 i) (hc1 : cond0_1 i)
    (x0 : Vec F S1024x256 .f32) (x1 : Vec F S2048x256 .f32) (xs0 : Vec F S1024x1 .f32) :
    out0_C_3 c i arg2 harg2 arg3 harg3 arg4 harg4 arg5 harg5 arg6 harg6 hc0 hc1 x0 x1 xs0 = k0_pay5 x0 x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  rw [View.canon_unit_zero hz3]
  simp only [View.readAt_eq_ld, harg2.read_unread, harg3.read_unread, harg6.read_unread, View.ld_unit_zero (S := S1024x256) hz2,
    View.ld_unit_zero (S := S2048x256) hz2, View.ld_unit_zero (S := S1024x1) hz2]

/-- The row block's distances: the clamped roots of the column the last tile finished. -/
theorem roots_last (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024 .f32) (harg4 : arg4.IsWhole) (arg5 : Memref sig .tc .vmem S1x1x2048 .f32) (harg5 : arg5.IsWhole) (arg6 : Memref sig .tc .vmem S1024x1 .f32) (harg6 : arg6.IsWhole) (hc0 : ¬cond0_0 i) (hc1 : cond0_1 i)
    (x0 : Vec F S1024x256 .f32) (x1 : Vec F S2048x256 .f32) (xs0 : Vec F S1024x1 .f32) :
    out0_C_2 c i arg2 harg2 arg3 harg3 arg4 harg4 arg5 harg5 arg6 harg6 hc0 hc1 x0 x1 xs0 = k0_pay1 (k0_pay4 x0 x1 xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz1, View.readCov_unit_zero (S := S1024x1) _ hz2]
  simp only [View.readAt_eq_ld, harg2.read_unread, harg3.read_unread, harg6.read_unread, View.ld_unit_zero (S := S1024x256) hz2,
    View.ld_unit_zero (S := S2048x256) hz2, View.ld_unit_zero (S := S1024x1) hz2]

end Cert.KernelIdeal.Pieces

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.TileValue.lean ====
/-
  One tile's arithmetic at the extended reals, read at coordinates.

  From a block `x0` of 1024 rows of the first set and a block `x1` of 2048 rows of the second the body forms the
  tile of squared distances: at (p, q), |x0 p|² + |x1 q|² − 2·⟨x0 p, x1 q⟩ (`tileSq`, `tile_at`) — the row norms are
  lane sums kept as a column and as a row, the inner products one matrix product against the second block
  transposed, and a change of float format is the identity. The tile's row minima are folded into the carried
  column (`fold_at`), its column minima are written out (`colmin_at`), the reset column holds +∞ (`reset_at`), and
  the finished column leaves as clamped roots (`roots_at`).
-/
import proofs.«100556_j52072183497482_2_alg».proof.Proof.Gen.KernelIdeal.Skeleton
import proofs.«100556_j52072183497482_2_alg».proof.Proof.LibTileRead
import proofs.«100556_j52072183497482_2_alg».proof.Proof.LibColumnOps
import proofs.«100556_j52072183497482_2_alg».proof.Proof.LibColumnSum
import proofs.«100556_j52072183497482_2_alg».proof.Proof.Nearest

noncomputable section

open Idealize.ShloMosaic Idealize.ShloMosaic.TcCoe Idealize.SL.Sem

namespace Cert.KernelIdeal.Tile

open Cert.KernelIdeal Cert.KernelIdeal.Gen Idealize.ShloMosaic.ValueIdx
open Cert.Lib.TileRead Cert.Lib.ColumnSum Idealize.ShloMosaic.ColumnOps Cert.Lib.Minima Cert.Nearest

/-- The squared distance of row `p` of the first block from row `q` of the second. -/
def tileSq (x0 : Vec Ideal S1024x256 .f32) (x1 : Vec Ideal S2048x256 .f32) (p : Fin 1024) (q : Fin 2048) : EReal :=
  (∑ k : Fin 256, x0 (ix2 p k) * x0 (ix2 p k)) + (∑ k : Fin 256, x1 (ix2 q k) * x1 (ix2 q k))
    - two * ∑ k : Fin 256, x0 (ix2 p k) * x1 (ix2 q k)

/-- When the blocks' rows are rows `n` and `m` of the two sets, it is the sets' squared distance there. -/
theorem tileSq_of_rows (A B : Pts) (x0 : Vec Ideal S1024x256 .f32) (x1 : Vec Ideal S2048x256 .f32) (n m : Fin 8192)
    (p : Fin 1024) (q : Fin 2048) (h0 : ∀ k : Fin 256, x0 (ix2 p k) = A (ix2 n k))
    (h1 : ∀ k : Fin 256, x1 (ix2 q k) = B (ix2 m k)) : tileSq x0 x1 p q = sqDist A B n m := by
  unfold tileSq sqDist
  simp only [h0, h1]

/-- The body's matrix product contracts the first block's coordinates with the transposed second block's. -/
theorem plainDot : PlainDot dot_S1024x256_S256x2048_S1024x2048_1_0_0_1_n_n where
  hr := rfl
  hs := rfl
  l0 := fun j q => by
    unfold DotDims.lhsIdx
    rw [dif_neg (show ¬(0 : Fin S1024x256.rank) ∈ dot_S1024x256_S256x2048_S1024x2048_1_0_0_1_n_n.lhsBatch by decide),
      dif_pos (show (0 : Fin S1024x256.rank) ∈ dot_S1024x256_S256x2048_S1024x2048_1_0_0_1_n_n.lhsNonContracting by decide)]
    rfl
  l1 := fun j q => dot_S1024x256_S256x2048_S1024x2048_1_0_0_1_n_n.lhsIdx_val_of_single rfl j q
  r0 := fun j q => dot_S1024x256_S256x2048_S1024x2048_1_0_0_1_n_n.rhsIdx_val_of_single rfl j q
  r1 := fun j q => by
    unfold DotDims.rhsIdx
    rw [dif_neg (show ¬(1 : Fin S256x2048.rank) ∈ dot_S1024x256_S256x2048_S1024x2048_1_0_0_1_n_n.rhsBatch by decide),
      dif_pos (show (1 : Fin S256x2048.rank) ∈ dot_S1024x256_S256x2048_S1024x2048_1_0_0_1_n_n.rhsNonContracting by decide)]
    rfl

/-- The tile of squared distances at (p, q). -/
theorem tile_at (x0 : Vec Ideal S1024x256 .f32) (x1 : Vec Ideal S2048x256 .f32) (p : Fin 1024) (q : Fin 2048) :
    k0_pay3 (F := Ideal) x0 x1 (ix2 p q) = tileSq x0 x1 p q := by
  unfold k0_pay3 tileSq
  show broadcastTo S1024x2048 _ _ (ix2 p q) + broadcastTo S1024x2048 _ _ (ix2 p q)
      - Ideal.ofBits .f32 0x40000000#32 * matmul dot_S1024x256_S256x2048_S1024x2048_1_0_0_1_n_n none _ _ _ (ix2 p q) = _
  refine congrArg₂ (· - ·) (congrArg₂ (· + ·) ?_ ?_) (congrArg (Ideal.ofBits .f32 0x40000000#32 * ·) ?_)
  · exact (broadcastTo_col_apply _ _ p q).trans ((shapeCast_column_apply _ _ p 0).trans (lane_sum_apply _ _ _ _ p))
  · exact (broadcastTo_row_apply _ _ p q).trans ((transpose_swap_apply _ _ 0 q).trans
      ((shapeCast_column_apply _ _ q 0).trans (lane_sum_apply _ _ _ _ q)))
  · exact (matmul_zero_plain_apply _ plainDot none _ _ p q).trans
      (Finset.sum_congr rfl fun k _ => congrArg (x0 (ix2 p k) * ·) (transpose_swap_apply _ _ k q))

/-- The carried column after a tile: at row `p`, the least of what it held and the tile's row `p`. -/
theorem fold_at (x0 : Vec Ideal S1024x256 .f32) (x1 : Vec Ideal S2048x256 .f32) (col : Vec Ideal S1024x1 .f32)
    (p : Fin 1024) (u : Fin 1) :
    k0_pay4 (F := Ideal) x0 x1 col (ix2 p u) = min (col (ix2 p u)) (⨅ q : Fin 2048, tileSq x0 x1 p q) := by
  unfold k0_pay4
  refine (congrFun (shapeCast_self _ _) (ix2 p u)).trans ?_
  show min (col (ix2 p u)) (shapeCast S1024x1 _ _ (ix2 p u)) = _
  refine congrArg (min (col (ix2 p u))) ?_
  exact (shapeCast_column_apply _ _ p u).trans ((rowMin_apply _ _ _ _ p).trans (iInf_congr fun q => tile_at x0 x1 p q))

/-- The tile's column minima: at column `q`, the least of the tile's column `q`. -/
theorem colmin_at (x0 : Vec Ideal S1024x256 .f32) (x1 : Vec Ideal S2048x256 .f32) (u v : Fin 1) (q : Fin 2048) :
    k0_pay5 (F := Ideal) x0 x1 (ix3 u v q) = ⨅ p : Fin 1024, tileSq x0 x1 p q := by
  unfold k0_pay5
  exact (shapeCast_row3_apply _ _ u v q).trans ((shapeCast_row_apply _ _ 0 q).trans
    ((colMin_apply _ _ _ _ q).trans (iInf_congr fun p => tile_at x0 x1 p q)))

/-- The reset column holds the top element everywhere. -/
theorem reset_at (p : Fin 1024) (u : Fin 1) : k0_pay2 (F := Ideal) (ix2 p u) = ⊤ := by
  unfold k0_pay2
  refine (congrFun (shapeCast_self _ _) (ix2 p u)).trans ?_
  exact Cert.Lib.TileRead.inf_word

/-- The finished column's clamped roots. -/
theorem roots_at (col : Vec Ideal S1024x1 .f32) (p : Fin 1024) :
    k0_pay1 (F := Ideal) col (ix1 p) = clampRoot zero (col (ix2 p (0 : Fin 1))) := by
  unfold k0_pay1 clampRoot
  show Ideal.sqrt (max (shapeCast S1024 col _ (ix1 p)) (Ideal.ofBits .f32 0x00000000#32)) = _
  exact congrArg (fun z => Ideal.sqrt (max z (Ideal.ofBits .f32 0x00000000#32))) (shapeCast_uncolumn_apply col _ p)

end Cert.KernelIdeal.Tile

end
-- ==== Proof.Accum.lean ====
/-
  The grid, point by point.

  Point `t` of the 8 × 4 grid works on row block `t / 4` of the first set (1024 rows) and on row block `t % 4` of the
  second (2048 rows): row `p` of its first block is row `(t / 4) · 1024 + p` of the first set, row `q` of its second
  block row `(t % 4) · 2048 + q` of the second (`blk0_at`, `blk1_at`). So the tile's entry (p, q) is the squared
  distance of those two rows.

  The carried column after point `t` holds, at `p`, the least squared distance of row `(t / 4) · 1024 + p` from the
  rows of the second set below `(t % 4 + 1) · 2048` — the tiles met so far in this row block (`column_eq`, by
  induction on the point: the first tile of a row block starts from +∞, the least over no row at all; every later
  tile adds its own 2048 rows to what the point before left). After the last tile that is every row of the second set,
  and the clamped roots written out are the first set's distances (`roots_eq`). Every point also writes the least
  of each column of its tile: the least squared distance of a row of the second set from this row block
  (`colmin_eq`).
-/
import proofs.«100556_j52072183497482_2_alg».proof.Proof.Gen.KernelIdeal.Frame
import proofs.«100556_j52072183497482_2_alg».proof.Proof.Pieces
import proofs.«100556_j52072183497482_2_alg».proof.Proof.TileValue

noncomputable section

open Idealize.ShloMosaic Idealize.ShloMosaic.TcCoe Idealize.SL.Sem

namespace Cert.KernelIdeal.Accum

open Cert.KernelIdeal Cert.KernelIdeal.Gen Idealize.ShloMosaic.ValueIdx
open Cert.Lib.Minima Cert.Nearest Cert.KernelIdeal.Tile Cert.KernelIdeal.Pieces

variable (m : (ℓ : Loc nD τ sig) → Buf (Elt Ideal) ℓ)

/-- The first set as the region finds it. -/
abbrev setA (c : Dev nD) : Pts := V m c main_arg0
/-- The second set as the region finds it. -/
abbrev setB (c : Dev nD) : Pts := V m c main_arg1

/-- Row `p` of row block `b` of the first set (blocks of 1024 rows). -/
def rowIn (b : Fin 8) (p : Fin 1024) : Fin 8192 := ⟨b.val * 1024 + p.val, by have := b.isLt; have := p.isLt; omega⟩
/-- Row `q` of row block `j` of the second set (blocks of 2048 rows). -/
def colIn (j : Fin 4) (q : Fin 2048) : Fin 8192 := ⟨j.val * 2048 + q.val, by have := j.isLt; have := q.isLt; omega⟩

/-- The first set's row that row `p` of point `t`'s first block is. -/
def rowOf (t : ℕ) (p : Fin 1024) : Fin 8192 := rowIn ⟨t / 4 % 8, Nat.mod_lt _ (by decide)⟩ p
/-- The second set's row that row `q` of point `t`'s second block is. -/
def colOf (t : ℕ) (q : Fin 2048) : Fin 8192 := colIn ⟨t % 4, Nat.mod_lt _ (by decide)⟩ q

/-- The printed index maps over the grid: the first coordinate of a point is `t / 4`, the second `t % 4`. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 1) = t.val / 4
    ∧ win0_3.index t (0 : Fin 3) = t.val / 4 ∧ win0_3.index t (1 : Fin 3) = 0 ∧ win0_3.index t (2 : Fin 3) = t.val % 4 :=
  (by decide +kernel : ∀ t : Fin grid0.N, _)

theorem lt32 (t : Fin cfg0.N) : t.val < 32 := lt_of_lt_of_eq t.isLt (show cfg0.N = 32 from N_0)

/-- Row `p` of point `t`'s first block is row `rowOf t p` of the first set. -/
theorem blk0_at (c : Dev nD) (t : Fin cfg0.N) (p : Fin 1024) (k : Fin 256) :
    (iblk m c 0 t : Vec Ideal S1024x256 .f32) (ix2 p k) = setA m c (ix2 (rowOf t.val p) k) := by
  obtain ⟨e0, e1, -⟩ := idx_facts t
  have hN := lt32 t
  unfold iblk
  rw [View.read_apply]
  show V m c main_arg0 _ = V m c main_arg0 _
  congr 1
  funext a
  apply Fin.ext
  match a with
  | ⟨0, _⟩ =>
    show win0_0.index t (0 : Fin 2) * 1024 + 1 * p.val = t.val / 4 % 8 * 1024 + p.val
    rw [e0]; omega
  | ⟨1, _⟩ =>
    show win0_0.index t (1 : Fin 2) * 256 + 1 * k.val = k.val
    rw [e1]; omega

/-- Row `q` of point `t`'s second block is row `colOf t q` of the second set. -/
theorem blk1_at (c : Dev nD) (t : Fin cfg0.N) (q : Fin 2048) (k : Fin 256) :
    (iblk m c 1 t : Vec Ideal S2048x256 .f32) (ix2 q k) = setB m c (ix2 (colOf t.val q) k) := by
  obtain ⟨-, -, e0, e1, -⟩ := idx_facts t
  unfold iblk
  rw [View.read_apply]
  show V m c main_arg1 _ = V m c main_arg1 _
  congr 1
  funext a
  apply Fin.ext
  match a with
  | ⟨0, _⟩ =>
    show win0_1.index t (0 : Fin 2) * 2048 + 1 * q.val = t.val % 4 * 2048 + q.val
    rw [e0]; omega
  | ⟨1, _⟩ =>
    show win0_1.index t (1 : Fin 2) * 256 + 1 * k.val = k.val
    rw [e1]; omega

/-- Point `t`'s tile at (p, q) is the squared distance of the two rows it stands for. -/
theorem tile_rows (c : Dev nD) (t : Fin cfg0.N) (p : Fin 1024) (q : Fin 2048) :
    tileSq (iblk m c 0 t) (iblk m c 1 t) p q = sqDist (setA m c) (setB m c) (rowOf t.val p) (colOf t.val q) :=
  tileSq_of_rows (setA m c) (setB m c) (iblk m c 0 t) (iblk m c 1 t) (rowOf t.val p) (colOf t.val q) p q
    (blk0_at m c t p) (blk1_at m c t q)

/-! ## The carried column -/

/-- The least squared distance of row `n` of the first set from the rows of the second below `bound`. -/
def leastBelow (A B : Pts) (n : Fin 8192) (bound : ℕ) : EReal :=
  ⨅ k : Fin 8192, ⨅ (_ : k.val < bound), sqDist A B n k

/-- What the carried column holds after point `t`. -/
def colSoFar (A B : Pts) (t : ℕ) : Vec Ideal S1024x1 .f32 :=
  fun y => leastBelow A B (rowOf t (y 0)) ((t % 4 + 1) * 2048)

/-- One tile more: from the least over the rows below `(t % 4) · 2048` to the least over those below
    `(t % 4 + 1) · 2048`. -/
theorem column_step (c : Dev nD) (t : Fin cfg0.N) (prev : Vec Ideal S1024x1 .f32)
    (hprev : ∀ (p : Fin 1024) (u : Fin 1),
      prev (ix2 p u) = leastBelow (setA m c) (setB m c) (rowOf t.val p) (t.val % 4 * 2048)) :
    k0_pay4 (F := Ideal) (iblk m c 0 t) (iblk m c 1 t) prev = colSoFar (setA m c) (setB m c) t.val := by
  funext y
  obtain ⟨p, u, rfl⟩ : ∃ (p : Fin 1024) (u : Fin 1), y = ix2 p u := ⟨y 0, y 1, eq_ix2 y⟩
  refine (fold_at (iblk m c 0 t) (iblk m c 1 t) prev p u).trans ?_
  rw [hprev p u]
  show min _ _ = leastBelow (setA m c) (setB m c) (rowOf t.val p) ((t.val % 4 + 1) * 2048)
  unfold leastBelow
  rw [iInf_lt_block_succ 2048 (t.val % 4) (by omega) (fun k => sqDist (setA m c) (setB m c) (rowOf t.val p) k)]
  exact congrArg (min _) (iInf_congr fun q => tile_rows m c t p q)

/-- The column after point `t`, given the column after the point before it (when `t` is not a row block's first tile). -/
theorem column_at (c : Dev nD) (t : Fin cfg0.N)
    (ih : ¬t.val % 4 = 0 → (outsAt0 m c (t.val - 1) (Nat.lt_of_le_of_lt (Nat.sub_le _ _) t.isLt)).2.2
      = colSoFar (setA m c) (setB m c) (t.val - 1)) :
    (outsAt0 m c t.val t.isLt).2.2 = colSoFar (setA m c) (setB m c) t.val := by
  have hN := lt32 t
  by_cases h0 : t.val % 4 = 0
  · have h1 : ¬t.val % 4 = 3 := by omega
    rw [outsAt0_A m c t h0 h1]
    dsimp only
    refine (column_first c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)).trans ?_
    refine column_step m c t (k0_pay2 (F := Ideal)) fun p u => ?_
    rw [h0]
    exact (reset_at p u).trans (iInf_lt_zero 2048 _).symm
  · have prev_eq : ∀ (p : Fin 1024) (u : Fin 1),
        (outsAt0 m c (t.val - 1) (Nat.lt_of_le_of_lt (Nat.sub_le _ _) t.isLt)).2.2 (ix2 p u)
          = leastBelow (setA m c) (setB m c) (rowOf t.val p) (t.val % 4 * 2048) := fun p u => by
      rw [ih h0]
      show leastBelow (setA m c) (setB m c) (rowOf (t.val - 1) p) (((t.val - 1) % 4 + 1) * 2048) = _
      have e1 : (t.val - 1) % 4 + 1 = t.val % 4 := by omega
      have e2 : rowOf (t.val - 1) p = rowOf t.val p := Fin.ext (by
        show (t.val - 1) / 4 % 8 * 1024 + p.val = t.val / 4 % 8 * 1024 + p.val
        omega)
      rw [e1, e2]
    by_cases h1 : t.val % 4 = 3
    · rw [outsAt0_C m c t h0 h1]
      dsimp only
      exact (column_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).trans (column_step m c t _ prev_eq)
    · rw [outsAt0_B m c t h0 h1]
      dsimp only
      exact (column_middle c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).trans (column_step m c t _ prev_eq)

/-- The carried column after every point, by induction on the point. -/
theorem column_eq (c : Dev nD) : ∀ (n : ℕ) (h : n < cfg0.N),
    (outsAt0 m c n h).2.2 = colSoFar (setA m c) (setB m c) n
  | 0, h => column_at m c ⟨0, h⟩ fun h0 => absurd rfl h0
  | n + 1, h => column_at m c ⟨n + 1, h⟩ fun _ => column_eq c n _

/-! ## What a point writes out -/

/-- The column minima point `t` writes: at `q`, the least squared distance of row `colOf t q` of the second set from
    the rows of row block `t / 4` of the first. -/
theorem colmin_eq (c : Dev nD) (t : Fin cfg0.N) :
    (outsAt0 m c t.val t.isLt).2.1
      = fun y => ⨅ p : Fin 1024, sqDist (setA m c) (setB m c) (rowOf t.val p) (colOf t.val (y 2)) := by
  have hN := lt32 t
  have key : k0_pay5 (F := Ideal) (iblk m c 0 t) (iblk m c 1 t)
      = fun y => ⨅ p : Fin 1024, sqDist (setA m c) (setB m c) (rowOf t.val p) (colOf t.val (y 2)) := by
    funext y
    obtain ⟨u, v, q, rfl⟩ : ∃ (u v : Fin 1) (q : Fin 2048), y = ix3 u v q := ⟨y 0, y 1, y 2, eq_ix3 y⟩
    exact (colmin_at (iblk m c 0 t) (iblk m c 1 t) u v q).trans (iInf_congr fun p => tile_rows m c t p q)
  by_cases h0 : t.val % 4 = 0
  · have h1 : ¬t.val % 4 = 3 := by omega
    rw [outsAt0_A m c t h0 h1]
    dsimp only
    exact (colmin_first c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)).trans key
  · by_cases h1 : t.val % 4 = 3
    · rw [outsAt0_C m c t h0 h1]
      dsimp only
      exact (colmin_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).trans key
    · rw [outsAt0_B m c t h0 h1]
      dsimp only
      exact (colmin_middle c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).trans key

/-- The distances the last tile of a row block writes: at `p`, the first set's distance at row `rowOf t p`. -/
theorem roots_eq (c : Dev nD) (t : Fin cfg0.N) (h3 : t.val % 4 = 3) :
    (outsAt0 m c t.val t.isLt).1 = fun y => near₁ (setA m c) (setB m c) (rowOf t.val (y 0)) := by
  have hN := lt32 t
  have h0 : ¬t.val % 4 = 0 := by omega
  have hcol := column_eq m c t.val t.isLt
  rw [outsAt0_C m c t h0 h3] at hcol ⊢
  dsimp only at hcol ⊢
  have hcol' := (column_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).symm.trans hcol
  refine (roots_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).trans ?_
  rw [hcol']
  funext y
  obtain ⟨p, rfl⟩ : ∃ p : Fin 1024, y = ix1 p := ⟨y 0, eq_ix1 y⟩
  refine (roots_at _ p).trans ?_
  show clampRoot zero (leastBelow (setA m c) (setB m c) (rowOf t.val p) ((t.val % 4 + 1) * 2048)) = _
  rw [h3]
  exact congrArg (clampRoot zero) (iInf_lt_all _)

end Cert.KernelIdeal.Accum

end
-- ==== Proof.Arrays.lean ====
/-
  The two arrays the grid leaves behind.

  The first output, 8192 entries, is written in blocks of 1024 at the last tile of each row block: entry `n` ends
  holding the first set's distance at row `n` (`rowDists`, `final_rows`). The second, [8, 1, 8192], is written in
  blocks of 2048 at every point: entry (b, 0, m) ends holding the least squared distance of row `m` of the second
  set from the 1024 rows of row block `b` of the first (`colParts`, `final_cols`). Every index of either array lies
  in the block of exactly the point that stands for it, so what each point writes back is its block of one
  whole-array function, and the blocks cover the arrays.
-/
import proofs.«100556_j52072183497482_2_alg».proof.Proof.Accum
import Idealize.ShloMosaic.Lib.Pipeline.Value

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx
open Cert.Lib.Minima Cert.Nearest Cert.KernelIdeal.Accum

variable (m : (ℓ : Loc nD τ sig) → Buf (Elt Ideal) ℓ)

/-- The first set's distances, one per row. -/
def rowDists (A B : Pts) : S8192.Idx → EReal := fun i => near₁ A B (i 0)

/-- Per row block `b` of the first set and row `m` of the second: the least squared distance of that row from the block. -/
def colParts (A B : Pts) : S8x1x8192.Idx → EReal := fun i => ⨅ p : Fin 1024, sqDist A B (rowIn (i 0) p) (i 2)

/-! ## The distances of the first set's rows -/

/-- What the last tile of a row block writes back is its block of `rowDists`. -/
theorem flushed_rows (c : Dev nD) (t : Fin cfg0.N) (hf : (cfg0.win 2).flush t = true) :
    (dats m 0 c).flushed 2 t
      = ((cfg0.win 2).blk t).view.read (Elt Ideal) (rowDists (setA m c) (setB m c)) := by
  have h3 : t.val % 4 = 3 := (flush0_2 t).mp hf
  obtain ⟨-, -, -, -, e2, -⟩ := idx_facts t
  have hN := lt32 t
  show (cfg0.win 2).cut (grid0.coords t) ((dats m 0 c).after 2 t) = _
  rw [after0_2, roots_eq m c t h3]
  funext y
  show near₁ (setA m c) (setB m c) (rowOf t.val (y 0))
    = near₁ (setA m c) (setB m c) ((((cfg0.win 2).blk t).view.emb y) 0)
  refine congrArg (near₁ (setA m c) (setB m c)) (Fin.ext ?_)
  show t.val / 4 % 8 * 1024 + (y 0).val = win0_2.index t (0 : Fin 1) * 1024 + 1 * (y 0).val
  rw [e2]; omega

/-- An index of the array is in point `t`'s block iff its coordinate is in the block's range. -/
theorem mem_rows (t : Fin cfg0.N) (i : S8192.Idx) :
    i ∈ ((cfg0.win 2).blk t).view.set
      ↔ ∀ a : Fin 1, win0_2.index t a * S1024.size a ≤ (i a).val ∧ (i a).val < win0_2.index t a * S1024.size a + S1024.size a := by
  show i ∈ ((View.whole main_v0_0).slice (win0_2.rect t)).set ↔ _
  rw [View.set_slice_whole, Rect.mem_set_unit]
  exact Iff.rfl

/-- Row `n` is written by the last tile of row block `n / 1024`. -/
theorem cover_rows (i : S8192.Idx) :
    ∃ t : Fin cfg0.N, (cfg0.win 2).flush t = true ∧ i ∈ ((cfg0.win 2).blk t).view.set := by
  have hi : (i 0).val < 8192 := (i 0).isLt
  have hNe : cfg0.N = 32 := N_0
  obtain ⟨t, ht⟩ : ∃ t : Fin cfg0.N, t.val = (i 0).val / 1024 * 4 + 3 := ⟨⟨(i 0).val / 1024 * 4 + 3, by rw [hNe]; omega⟩, rfl⟩
  obtain ⟨-, -, -, -, e2, -⟩ := idx_facts t
  refine ⟨t, (flush0_2 t).mpr (by rw [ht]; omega), ?_⟩
  rw [mem_rows]
  intro a
  match a with
  | ⟨0, _⟩ =>
    show win0_2.index t (0 : Fin 1) * 1024 ≤ (i 0).val ∧ (i 0).val < win0_2.index t (0 : Fin 1) * 1024 + 1024
    rw [e2, ht]; omega

/-- The first output ends holding the first set's distances. -/
theorem final_rows (c : Dev nD) : (dats m 0 c).arrAt 2 cfg0.N = rowDists (setA m c) (setB m c) :=
  (dats m 0 c).arrAt_eq_of_cover 2 (rowDists (setA m c) (setB m c)) (flushed_rows m c) cover_rows

/-! ## The least squared distances of the second set's rows from each row block -/

/-- What every point writes back is its block of `colParts`. -/
theorem flushed_cols (c : Dev nD) (t : Fin cfg0.N) :
    (dats m 0 c).flushed 3 t
      = ((cfg0.win 3).blk t).view.read (Elt Ideal) (colParts (setA m c) (setB m c)) := by
  obtain ⟨-, -, -, -, -, e0, e1, e2⟩ := idx_facts t
  have hN := lt32 t
  show (cfg0.win 3).cut (grid0.coords t) ((dats m 0 c).after 3 t) = _
  rw [after0_3, colmin_eq m c t]
  funext y
  show (⨅ p : Fin 1024, sqDist (setA m c) (setB m c) (rowOf t.val p) (colOf t.val (y 2)))
    = ⨅ p : Fin 1024, sqDist (setA m c) (setB m c) (rowIn ((((cfg0.win 3).blk t).view.emb y) 0) p)
        ((((cfg0.win 3).blk t).view.emb y) 2)
  have h1 : (y 0).val < 1 := (y 0).isLt
  refine iInf_congr fun p => congrArg₂ (sqDist (setA m c) (setB m c)) (Fin.ext ?_) (Fin.ext ?_)
  · show t.val / 4 % 8 * 1024 + p.val = (win0_3.index t (0 : Fin 3) * 1 + 1 * (y 0).val) * 1024 + p.val
    rw [e0]; omega
  · show t.val % 4 * 2048 + (y 2).val = win0_3.index t (2 : Fin 3) * 2048 + 1 * (y 2).val
    rw [e2]; omega

/-- An index of the array is in point `t`'s block iff each coordinate is in the block's range on its axis. -/
theorem mem_cols (t : Fin cfg0.N) (i : S8x1x8192.Idx) :
    i ∈ ((cfg0.win 3).blk t).view.set
      ↔ ∀ a : Fin 3, win0_3.index t a * S1x1x2048.size a ≤ (i a).val
          ∧ (i a).val < win0_3.index t a * S1x1x2048.size a + S1x1x2048.size a := by
  show i ∈ ((View.whole main_v0_1).slice (win0_3.rect t)).set ↔ _
  rw [View.set_slice_whole, Rect.mem_set_unit]
  exact Iff.rfl

/-- Entry (b, 0, m) is written by tile `m / 2048` of row block `b`. -/
theorem cover_cols (i : S8x1x8192.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 8192 := (i 2).isLt
  have hNe : cfg0.N = 32 := N_0
  obtain ⟨t, ht⟩ : ∃ t : Fin cfg0.N, t.val = (i 0).val * 4 + (i 2).val / 2048 :=
    ⟨⟨(i 0).val * 4 + (i 2).val / 2048, by rw [hNe]; omega⟩, rfl⟩
  obtain ⟨-, -, -, -, -, e0, e1, e2⟩ := idx_facts t
  refine ⟨t, flush0_3 t, ?_⟩
  rw [mem_cols]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 2048 ≤ (i 2).val ∧ (i 2).val < win0_3.index t (2 : Fin 3) * 2048 + 2048
    rw [e2, ht]; omega

/-- The second output ends holding, per row block, the least squared distances of the second set's rows. -/
theorem final_cols (c : Dev nD) : (dats m 0 c).arrAt 3 cfg0.N = colParts (setA m c) (setB m c) :=
  (dats m 0 c).arrAt_eq_of_cover 3 (colParts (setA m c) (setB m c)) (fun t _ => flushed_cols m c t) cover_cols

end Cert.KernelIdeal.Arrays

end
-- ==== Proof.Tail.lean ====
/-
  After the grid: the program's result from the two arrays.

  The lines after the region take the mean of the first array — the first set's distances — and, of the second
  array, first the least over the eight row blocks of the first set, then the clamped root, then the mean; the result
  is the sum of the two means (`tail`). The least over the row blocks of the least within a row block is the least
  over all 8192 rows of the first set, so the second mean is over the second set's distances (`col_at`), and the
  result is the loss (`tail_value`). `run` states the whole program's run with its result at the loss of the two
  sets as the program found them.
-/
import proofs.«100556_j52072183497482_2_alg».proof.Proof.Arrays
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen Idealize.ShloMosaic.ValueIdx
open Cert.Lib.Minima Cert.Lib.TileRead Cert.Nearest Cert.KernelIdeal.Accum Cert.KernelIdeal.Arrays

/-- The lines after the region, as one function of the two arrays the region leaves. -/
def tail (R : (⟨S8192, .f32⟩ : BufTy).Contents (Elt Ideal)) (C : (⟨S8x1x8192, .f32⟩ : BufTy).Contents (Elt Ideal)) :
    (⟨S_, .f32⟩ : BufTy).Contents (Elt Ideal) :=
  addf
    (Host.divf (Host.reduceAdd R (constant (F := Ideal) S_ .f32 0x00000000#32) reducesTo_S8192_S_d0 h_S_)
      (constant (F := Ideal) S_ .f32 0x46000000#32))
    (Host.divf
      (Host.reduceAdd
        (Host.sqrt (maximumf
          (Host.reduce FloatOps.minimumf (shapeCast S8x8192 C shapeCasts_S8x1x8192_S8x8192)
            (constant (F := Ideal) S_ .f32 0x7F800000#32) reducesTo_S8x8192_S8192_d0 h_S_)
          (broadcastInDim S8192 ![] bcast_S_S8192 (constant (F := Ideal) S_ .f32 0x00000000#32))))
        (constant (F := Ideal) S_ .f32 0x00000000#32) reducesTo_S8192_S_d0 h_S_)
      (constant (F := Ideal) S_ .f32 0x46000000#32))

/-- The host's sum of a vector of 8192 entries from the zero word. -/
theorem hostSum_apply (y : S8192.Idx → EReal) (i : S_.Idx) :
    Host.reduceAdd (F := Ideal) (φ := .f32) y (constant (F := Ideal) S_ .f32 0x00000000#32) reducesTo_S8192_S_d0 h_S_ i
      = zero + ∑ j : S8192.Idx, y j := by
  simp only [Host.reduceAdd, Ideal.hostReduceAdd_def]
  exact Ideal.hostReduceAdd_total reducesTo_S8192_S_d0 (fun b => b.elim0) y _ i

/-- The host's root of an entrywise maximum, at an entry. -/
theorem hostSqrt_max_apply {s : Shape} (X Y : FVec Ideal s .f32) (i : s.Idx) :
    Host.sqrt (F := Ideal) (maximumf X Y) i = Ideal.sqrt (max (X i) (Y i)) := rfl

/-- The least over the row blocks, clamped and rooted: the second set's distance at row `q`. -/
theorem col_at (A B : Pts) (j : S8192.Idx) :
    Host.sqrt (F := Ideal) (maximumf
        (Host.reduce FloatOps.minimumf (shapeCast S8x8192 (colParts A B) shapeCasts_S8x1x8192_S8x8192)
          (constant (F := Ideal) S_ .f32 0x7F800000#32) reducesTo_S8x8192_S8192_d0 h_S_)
        (broadcastInDim S8192 ![] bcast_S_S8192 (constant (F := Ideal) S_ .f32 0x00000000#32))) j
      = near₂ A B (j 0) := by
  obtain ⟨q, rfl⟩ : ∃ q : Fin 8192, j = ix1 q := ⟨j 0, eq_ix1 j⟩
  have hb : broadcastInDim S8192 ![] bcast_S_S8192 (constant (F := Ideal) S_ .f32 0x00000000#32) (ix1 q)
      = Ideal.ofBits .f32 0x00000000#32 :=
    broadcastInDim_apply _ bcast_S_S8192 (constant (F := Ideal) S_ .f32 0x00000000#32) (ix1 q) ix0 (fun a => a.elim0)
  have hmin := hostColMin_apply (shapeCast S8x8192 (colParts A B) shapeCasts_S8x1x8192_S8x8192)
    reducesTo_S8x8192_S8192_d0 (by decide) h_S_ q
  have hblocks : (⨅ b : Fin 8, shapeCast S8x8192 (colParts A B) shapeCasts_S8x1x8192_S8x8192 (ix2 b q))
      = ⨅ n : Fin 8192, sqDist A B n q := by
    rw [iInf_fin_blocks 8 1024 rfl (fun n => sqDist A B n q)]
    exact iInf_congr fun b => (shapeCast_apply (colParts A B) shapeCasts_S8x1x8192_S8x8192 (ix2 b q) (ix3 b (0 : Fin 1) q) (by
      rw [Shape.rowMajor_val_three, Shape.rowMajor_val_two]
      show (b.val * 1 + 0) * 8192 + q.val = b.val * 8192 + q.val
      omega)).trans rfl
  refine (hostSqrt_max_apply _ _ (ix1 q)).trans ?_
  rw [hmin, hb, hblocks]
  rfl

/-- From the two arrays the grid leaves, the lines after the region compute the loss. -/
theorem tail_value (A B : Pts) : tail (rowDists A B) (colParts A B) = loss A B := by
  funext i
  unfold tail loss
  show Ideal.div (Host.reduceAdd (F := Ideal) (φ := .f32) (rowDists A B) (constant (F := Ideal) S_ .f32 0x00000000#32) reducesTo_S8192_S_d0 h_S_ i) count
      + Ideal.div (Host.reduceAdd (F := Ideal) (φ := .f32) _ (constant (F := Ideal) S_ .f32 0x00000000#32) reducesTo_S8192_S_d0 h_S_ i) count = _
  rw [hostSum_apply, hostSum_apply]
  refine congrArg₂ (· + ·) rfl (congrArg (Ideal.div · count) (congrArg (zero + ·) (Finset.sum_congr rfl fun j _ => ?_)))
  exact col_at A B j

variable (m : (ℓ : Loc nD τ sig) → Buf (Elt Ideal) ℓ) (ρ : Dev nD → PrngReg)

/-- The program's result buffer is among the buffers the lines after the region leave. -/
theorem result_rest : main_v10 ∈ Pipeline.restRefs sig cfg0.spec := by decide

/-- What the lines after the region leave in the result buffer: the loss of the two sets as the region found them. -/
theorem tail_eq (c : Dev nD) :
    Pipeline.afterTail₀ cfgs (dats m) 0 (V0 m) [hostOps1] c main_v10 = loss (setA m c) (setB m c) := by
  unfold Pipeline.afterTail₀
  show StableHlo.after hostOps1 _ (Proc.devRef .tc main_v10) = _
  have e : StableHlo.after (hostOps1 (F := Ideal))
      (Pipeline.withArrays (cfgs 0).spec c (V0 m c) fun w => (dats m 0 c).arrAt w (cfgs 0).N) (Proc.devRef .tc main_v10)
      = tail (Pipeline.withArrays (cfgs 0).spec c (V0 m c) (fun w => (dats m 0 c).arrAt w (cfgs 0).N) (Proc.devRef .tc main_v0_0))
          (Pipeline.withArrays (cfgs 0).spec c (V0 m c) (fun w => (dats m 0 c).arrAt w (cfgs 0).N) (Proc.devRef .tc main_v0_1)) := by
    after_results
    rfl
  refine e.trans ?_
  have h2 := (Pipeline.withArrays_arr spec0 launch0.win.arr_inj c (V0 m c) (fun w => (dats m 0 c).arrAt w (cfgs 0).N) 2).trans (final_rows m c)
  have h3 := (Pipeline.withArrays_arr spec0 launch0.win.arr_inj c (V0 m c) (fun w => (dats m 0 c).arrAt w (cfgs 0).N) 3).trans (final_cols m c)
  exact (congrArg₂ tail h2 h3).trans (tail_value (setA m c) (setB m c))

/-- The whole program's run: its result at the loss of the two argument arrays, the arguments unchanged. -/
theorem run : θ_run defs (onTc (τ := τ) (main (F := Ideal))) ⟨m, fun _ => 0, ρ⟩ fun r => ∀ c : Dev nD,
      r.2.mem ((c.tc : Thread nD τ).loc main_v10)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.lean ====
/-
  The averaged nearest-neighbour (Hausdorff) loss of two sets of 8192 points in 256 dimensions: a fused kernel
  against the plain formula.

  Both programs measure the squared distance of point `n` of the first set from point `m` of the second through the
  inner product, |a|² + |b|² − 2·⟨a, b⟩. The reference builds the whole 8192 × 8192 matrix of distances — the root of
  the squared distance clamped at zero — and takes the least entry of every row and of every column, then the two
  means, then their sum. The kernel never forms the roots of the matrix: on a grid of 8 × 4 tiles (1024 rows of the
  first set against 2048 of the second) it keeps, per row, the least SQUARED distance over the tiles met so far, and
  per tile the least squared distance in each column; only the finished minima are clamped and rooted — by the
  kernel for the rows, after a last minimum over the eight row blocks by the lines after it for the columns — before
  the same two means and their sum.

  Over the extended reals the two agree, with no condition on the inputs: the root of a value clamped at zero is
  monotone and sends +∞ to +∞, so it commutes with every finite minimum; a minimum over 8192 indices is the minimum
  over consecutive blocks of the blocks' minima, in any order; and the squared distances themselves are the same
  sums on both sides (a change of float format is the identity, the matrix product is the sum over the 256
  coordinates). The three frames are the generated ones (the reference's is its run with the result dropped); the
  idealization rewrote nothing.
-/
import proofs.«100556_j52072183497482_2_alg».proof.Defs
import proofs.«100556_j52072183497482_2_alg».proof.Proof.Gen.Kernel
import proofs.«100556_j52072183497482_2_alg».proof.Proof.Gen.Kernel.Skeleton
import proofs.«100556_j52072183497482_2_alg».proof.Proof.Gen.Kernel.Launch
import proofs.«100556_j52072183497482_2_alg».proof.Proof.Gen.Kernel.Points
import proofs.«100556_j52072183497482_2_alg».proof.Proof.Gen.Kernel.Frame
import proofs.«100556_j52072183497482_2_alg».proof.Proof.Gen.KernelIdeal
import proofs.«100556_j52072183497482_2_alg».proof.Proof.Gen.KernelIdeal.Skeleton
import proofs.«100556_j52072183497482_2_alg».proof.Proof.Gen.KernelIdeal.Launch
import proofs.«100556_j52072183497482_2_alg».proof.Proof.Gen.KernelIdeal.Points
import proofs.«100556_j52072183497482_2_alg».proof.Proof.Gen.KernelIdeal.Frame
import proofs.«100556_j52072183497482_2_alg».proof.Proof.Gen.ReferenceIdeal
import proofs.«100556_j52072183497482_2_alg».proof.Proof.Gen.ReferenceIdeal.Run
import proofs.«100556_j52072183497482_2_alg».proof.Proof.Gen.ReferenceIdeal.Read
import proofs.«100556_j52072183497482_2_alg».proof.Proof.Gen.Pre_finite_inputs
import proofs.«100556_j52072183497482_2_alg».proof.Proof.RefSide
import proofs.«100556_j52072183497482_2_alg».proof.Proof.Tail
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end at the loss of the two point sets. -/
theorem algebraic : Cert.algebraic_KernelIdeal_ReferenceIdeal := by
  intro m ρ m' ρ' _ hagree
  refine ⟨fun c => Cert.Nearest.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
